-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x8 : Shape := ⟨2, ![4194304, 8]⟩
abbrev S4194304 : Shape := ⟨1, ![4194304]⟩
abbrev S1048576x1 : Shape := ⟨2, ![1048576, 1]⟩
abbrev S_ : Shape := ⟨0, ![]⟩

class Facts : Prop where
  bcast_S_S4194304x8 : S_.BroadcastsInDim S4194304x8 (![] : Fin 0 → Fin S4194304x8.rank)
  reducesTo_S4194304x8_S_d0_1 : S4194304x8.ReducesTo [0, 1] S_
  h_S_ : 0 < S_.numel
  bcast_S_S1048576x1 : S_.BroadcastsInDim S1048576x1 (![] : Fin 0 → Fin S1048576x1.rank)
  reducesTo_S1048576x1_S_d0_1 : S1048576x1.ReducesTo [0, 1] S_

variable [Facts]

def fn {F : FTy → Type} [FloatOps F] (main_arg0 : FVec F S4194304x8 .f32) (main_arg1 : IVec S4194304 32) (main_arg2 : FVec F S1048576x1 .f32) : IVec S_ 1 :=
  let main_v0 : FVec F S4194304x8 .f32 := Host.absf main_arg0
  let main_cst : FVec F S_ .f32 := constant S_ .f32 0x7F800000#32
  let main_v1 : FVec F S4194304x8 .f32 := broadcastInDim S4194304x8 ![] bcast_S_S4194304x8 main_cst
  let main_v2 : IVec S4194304x8 1 := cmpf .olt main_v0 main_v1
  let main_c : IVec S_ 1 := constantI S_ 1 1#1
  let main_v3 : IVec S_ 1 := (fun x v => Host.reduce IntOp.andi x v reducesTo_S4194304x8_S_d0_1 h_S_) main_v2 main_c
  let main_v4 : FVec F S1048576x1 .f32 := Host.absf main_arg2
  let main_cst_0 : FVec F S_ .f32 := constant S_ .f32 0x7F800000#32
  let main_v5 : FVec F S1048576x1 .f32 := broadcastInDim S1048576x1 ![] bcast_S_S1048576x1 main_cst_0
  let main_v6 : IVec S1048576x1 1 := cmpf .olt main_v4 main_v5
  let main_c_1 : IVec S_ 1 := constantI S_ 1 1#1
  let main_v7 : IVec S_ 1 := (fun x v => Host.reduce IntOp.andi x v reducesTo_S1048576x1_S_d0_1 h_S_) main_v6 main_c_1
  let main_v8 : IVec S_ 1 := andi main_v3 main_v7
  main_v8
-- ==== Kernel.lean ====
abbrev S4194304x8 : Shape := ⟨2, ![4194304, 8]⟩
abbrev S4194304 : Shape := ⟨1, ![4194304]⟩
abbrev S1048576x1 : Shape := ⟨2, ![1048576, 1]⟩
abbrev S_ : Shape := ⟨0, ![]⟩
abbrev S4194304x1 : Shape := ⟨2, ![4194304, 1]⟩
abbrev S131072x1 : Shape := ⟨2, ![131072, 1]⟩
abbrev S131072x8 : Shape := ⟨2, ![131072, 8]⟩

abbrev nBuf : Space → Nat
  | .hbm => 13
  | .vmem => 6
  | .smem => 0
  | _ => 0

abbrev bufTy : (tb : Table) → Fin (tcTables nBuf tb) → BufTy
  | .hbm, ⟨0, _⟩ => ⟨S4194304x8, .f32⟩
  | .hbm, ⟨1, _⟩ => ⟨S4194304, .i32⟩
  | .hbm, ⟨2, _⟩ => ⟨S1048576x1, .f32⟩
  | .hbm, ⟨3, _⟩ => ⟨S_, .i32⟩
  | .hbm, ⟨4, _⟩ => ⟨S4194304, .i32⟩
  | .hbm, ⟨5, _⟩ => ⟨S4194304, .i1⟩
  | .hbm, ⟨6, _⟩ => ⟨S_, .i32⟩
  | .hbm, ⟨7, _⟩ => ⟨S4194304, .i32⟩
  | .hbm, ⟨8, _⟩ => ⟨S4194304, .i32⟩
  | .hbm, ⟨9, _⟩ => ⟨S4194304, .i32⟩
  | .hbm, ⟨10, _⟩ => ⟨S4194304x1, .i32⟩
  | .hbm, ⟨11, _⟩ => ⟨S4194304x1, .f32⟩
  | .hbm, ⟨12, _⟩ => ⟨S4194304x8, .f32⟩
  | .local _ .vmem, ⟨0, _⟩ => ⟨S131072x1, .f32⟩
  | .local _ .vmem, ⟨1, _⟩ => ⟨S131072x1, .f32⟩
  | .local _ .vmem, ⟨2, _⟩ => ⟨S131072x8, .f32⟩
  | .local _ .vmem, ⟨3, _⟩ => ⟨S131072x8, .f32⟩
  | .local _ .vmem, ⟨4, _⟩ => ⟨S131072x8, .f32⟩
  | .local _ .vmem, ⟨5, _⟩ => ⟨S131072x8, .f32⟩
  | _, _ => ⟨S4194304x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S131072x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S131072x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S131072x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S4194304 : S_.BroadcastsInDim S4194304 (![] : Fin 0 → Fin S4194304.rank)
  bcast_S4194304_S4194304x1_0 : S4194304.BroadcastsInDim S4194304x1 (![0] : Fin 1 → Fin S4194304x1.rank)
  inb_S131072x1_S131072x1_0_0 : ∀ a, (![0, 0] : Fin 2 → Nat) a + S131072x1.size a ≤ S131072x1.size a
  h_S131072x1 : 0 < S131072x1.numel
  shapeCasts_S131072x1_S131072x1 : S131072x1.ShapeCasts S131072x1
  inb_S131072x8_S131072x8_0_0 : ∀ a, (![0, 0] : Fin 2 → Nat) a + S131072x8.size a ≤ S131072x8.size a
  h_S131072x8 : 0 < S131072x8.numel
  broadcasts_S131072x1_S131072x8 : S131072x1.Broadcasts S131072x8
  gather_S1048576x1_S4194304x1_S4194304x1_1_0_n_n_0_1_11_wf : GatherDims.WF S1048576x1 S4194304x1 S4194304x1 [1] [0] [] [0] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S131072x1.size a ≤ S4194304x1.size a
  hwx0_0 : ∀ i : grid0.Coords, EltTy.bits .f32 = 32 ∨ (Rect.block (s := S4194304x1) S131072x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S131072x8.size a ≤ S4194304x8.size a
  hwx0_1 : ∀ i : grid0.Coords, EltTy.bits .f32 = 32 ∨ (Rect.block (s := S4194304x8) S131072x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S131072x8.size a ≤ S4194304x8.size a
  hwx0_2 : ∀ i : grid0.Coords, EltTy.bits .f32 = 32 ∨ (Rect.block (s := S4194304x8) S131072x8.size (cc0_transform_2 i) (hinb0_2 i)).WholeWords (EltTy.packing .f32)

variable [Facts₀]

def gather_S1048576x1_S4194304x1_S4194304x1_1_0_n_n_0_1_11 : GatherDims S1048576x1 S4194304x1 S4194304x1 where
  offsetDims := [1]
  collapsedSliceDims := [0]
  operandBatchingDims := []
  startIndicesBatchingDims := []
  startIndexMap := [0]
  indexVectorDim := 1
  sliceSizes := ![1, 1]
  wf := gather_S1048576x1_S4194304x1_S4194304x1_1_0_n_n_0_1_11_wf

abbrev win0_0 : Pipeline.Window sig grid0 :=
  Pipeline.Window.ofSpec (Memref.whole main_v6) S131072x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S131072x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S131072x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4194304x8 : Shape := ⟨2, ![4194304, 8]⟩
abbrev S4194304 : Shape := ⟨1, ![4194304]⟩
abbrev S1048576x1 : Shape := ⟨2, ![1048576, 1]⟩
abbrev S_ : Shape := ⟨0, ![]⟩
abbrev S4194304x1 : Shape := ⟨2, ![4194304, 1]⟩

abbrev nBuf : Space → Nat
  | .hbm => 14
  | .vmem => 0
  | .smem => 0
  | _ => 0

abbrev bufTy : (tb : Table) → Fin (tcTables nBuf tb) → BufTy
  | .hbm, ⟨0, _⟩ => ⟨S4194304x8, .f32⟩
  | .hbm, ⟨1, _⟩ => ⟨S4194304, .i32⟩
  | .hbm, ⟨2, _⟩ => ⟨S1048576x1, .f32⟩
  | .hbm, ⟨3, _⟩ => ⟨S_, .i32⟩
  | .hbm, ⟨4, _⟩ => ⟨S4194304, .i32⟩
  | .hbm, ⟨5, _⟩ => ⟨S4194304, .i1⟩
  | .hbm, ⟨6, _⟩ => ⟨S_, .i32⟩
  | .hbm, ⟨7, _⟩ => ⟨S4194304, .i32⟩
  | .hbm, ⟨8, _⟩ => ⟨S4194304, .i32⟩
  | .hbm, ⟨9, _⟩ => ⟨S4194304, .i32⟩
  | .hbm, ⟨10, _⟩ => ⟨S4194304x1, .i32⟩
  | .hbm, ⟨11, _⟩ => ⟨S4194304x1, .f32⟩
  | .hbm, ⟨12, _⟩ => ⟨S4194304x8, .f32⟩
  | .hbm, ⟨13, _⟩ => ⟨S4194304x8, .f32⟩
  | _, _ => ⟨S4194304x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x8_0_1 : S4194304x1.BroadcastsInDim S4194304x8 (![0, 1] : Fin 2 → Fin S4194304x8.rank)
  gather_S1048576x1_S4194304x1_S4194304x1_1_0_n_n_0_1_11_wf : GatherDims.WF S1048576x1 S4194304x1 S4194304x1 [1] [0] [] [0] [] 1 ![1, 1]

variable [Facts₀]

def gather_S1048576x1_S4194304x1_S4194304x1_1_0_n_n_0_1_11 : GatherDims S1048576x1 S4194304x1 S4194304x1 where
  offsetDims := [1]
  collapsedSliceDims := [0]
  operandBatchingDims := []
  startIndicesBatchingDims := []
  startIndexMap := [0]
  indexVectorDim := 1
  sliceSizes := ![1, 1]
  wf := gather_S1048576x1_S4194304x1_S4194304x1_1_0_n_n_0_1_11_wf

class Facts : Prop extends Facts₀ where

variable [Facts]
-- ==== Proof.RowScale.lean ====
/-
  The function both programs compute. There is a table of 4194304 rows of 8 numbers (`xs`) and a column of 4194304
  numbers, one FACTOR per row. The result has the table's shape, and its entry in row `r`, column `d` is

      factor r · xs r d,

  the factor written on the left of the product. Nothing else happens to the numbers: no sum, no constant, no
  second use of an entry. So the identity between the two programs needs no law of arithmetic at all (not even that
  the product commutes) and holds for every reading of the floats, the extended reals among them; it is a statement
  about WHERE each entry of the result finds its two operands.
-/
import Idealize.ShloMosaic.Lib.ValueIdx

noncomputable section

namespace Cert.RowScale

open Idealize.ShloMosaic Idealize.ShloMosaic.ValueIdx

variable {F : FTy → Type} [FloatOps F]

/-- The shape of the table and of the result: 4194304 rows of 8. -/
abbrev Wide : Shape := ⟨2, ![4194304, 8]⟩
/-- The shape of the factors: 4194304 rows of 1. -/
abbrev Column : Shape := ⟨2, ![4194304, 1]⟩

/-- Where the entry at `i` of the wide shape finds its factor: same row, the column's only entry. -/
abbrev factorAt (i : Wide.Idx) : Column.Idx :=
  ix2 (n0 := 4194304) (n1 := 1) ⟨(i 0).val, (i 0).isLt⟩ ⟨0, Nat.one_pos⟩

/-- Every row of `xs` multiplied through by its row's factor. -/
def rowScaled (factor : Column.Idx → Elt F .f32) (xs : Wide.Idx → Elt F .f32) : Wide.Idx → Elt F .f32 :=
  fun i => FloatOps.mulf (factor (factorAt i)) (xs i)

/-- Read at an entry. -/
theorem rowScaled_apply (factor : Column.Idx → Elt F .f32) (xs : Wide.Idx → Elt F .f32) (i : Wide.Idx) :
    rowScaled factor xs i = FloatOps.mulf (factor (factorAt i)) (xs i) := rfl

end Cert.RowScale

end
-- ==== Proof.ReferenceRows.lean ====
/-
  The reference program, read one operation at a time: its last operation multiplies, entry by entry, the gathered
  factors spread along each row (a broadcast from 4194304 rows of 1 to 4194304 rows of 8, which reads row `r`,
  column 0 for every entry of row `r`) with the table. That is the row-scaling function of the gathered factor column
  and the table. The gathered column itself is not opened: the kernel's program computes the same column by the
  same operations before its region, and the two are compared as whole terms.
-/
import proofs.«168124_j13039520711241_1_alg».proof.Proof.Gen.ReferenceIdeal.Read
import proofs.«168124_j13039520711241_1_alg».proof.Proof.RowScale

noncomputable section

namespace Cert.ReferenceIdeal.Rows

open Cert.ReferenceIdeal Cert.ReferenceIdeal.Read Idealize.ShloMosaic Idealize.ShloMosaic.TcCoe Cert.RowScale

variable {F : FTy → Type} [FloatOps F]

/-- The broadcast's source index is the factor's place: same row, column 0. -/
theorem spread_index (i : S4194304x8.Idx) : idx_main_v7 i = factorAt i :=
  funext fun a => by match a with | ⟨0, _⟩ => rfl | ⟨1, _⟩ => rfl

/-- The reference's result is the table with every row multiplied through by its gathered factor. -/
theorem result_eq (x0 : (⟨S4194304x8, .f32⟩ : BufTy).Contents (Elt F)) (x1 : (⟨S4194304, .i32⟩ : BufTy).Contents (Elt F))
    (x2 : (⟨S1048576x1, .f32⟩ : BufTy).Contents (Elt F)) :
    val_main_v8 (F := F) x0 x1 x2 = rowScaled (val_main_v6 (F := F) x1 x2) x0 := by
  funext i
  rw [val_main_v8_apply, val_main_v7_apply, spread_index, rowScaled_apply]

end Cert.ReferenceIdeal.Rows

end
-- ==== Proof.BlockIndex.lean ====
/-
  The launch cuts the 4194304 rows into 32 consecutive blocks of 131072 rows, one per grid point, and every window
  moves with the grid in the same way: at grid point `t` the factor column's window, the table's window and the
  result's window are all at block row `t`, block column 0. (The three index maps are the same text; this is that
  remark, checked point by point over the 32 points.)
-/
import proofs.«168124_j13039520711241_1_alg».proof.Proof.Gen.KernelIdeal.Frame

noncomputable section

namespace Cert.KernelIdeal.Rows

open Cert.KernelIdeal Cert.KernelIdeal.Gen
open Idealize.ShloMosaic Idealize.ShloMosaic.TcCoe Idealize.SL.Sem
open Idealize.ShloMosaic.Pipeline (Dat)

/-- At grid point `t` each of the three windows sits at block row `t`, block column 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

end Cert.KernelIdeal.Rows

end
-- ==== Proof.KernelBlock.lean ====
/-
  One grid point of the kernel. The body loads its block of the factor column (131072 rows of 1) and its block of
  the table (131072 rows of 8), spreads each factor along its row and multiplies, factor on the left; it stores the
  product over the whole result block. So the block it leaves holds, at row `p` and column `d` of the block,
  (factor of block row `p`) · (table entry at block row `p`, column `d`).

  Block row `p` of grid point `t` is row `131072·t + p` of the arrays, for all three windows alike, so what
  point `t` writes back is block `t` of the row-scaling function of the two arrays as the region finds them.
-/
import proofs.«168124_j13039520711241_1_alg».proof.Proof.Gen.KernelIdeal.Value
import proofs.«168124_j13039520711241_1_alg».proof.Proof.RowScale
import proofs.«168124_j13039520711241_1_alg».proof.Proof.BlockIndex

noncomputable section

namespace Cert.KernelIdeal.Rows

open Cert.KernelIdeal Cert.KernelIdeal.Gen Cert.KernelIdeal.Value Cert.RowScale
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's loads and its store start at the corner of their buffers. -/
theorem corner : (![0, 0] : Fin 2 → Nat) = fun _ => 0 := funext fun a => by fin_cases a <;> rfl

/-- What the body leaves in the result block, for any loaded factor block `f` and table block `x`: at block index `y`
    the factor of `y`'s row times the table entry at `y`. -/
theorem body_block (f : Vec F S131072x1 .f32) (x : Vec F S131072x8 .f32) (y : S131072x8.Idx) :
    out0_2 f x y = FloatOps.mulf (f (ix2_0 y)) (x (ix2_1 y)) := by
  unfold out0_2
  rw [canon2_eq]
  show FloatOps.mulf (View.ld f r0_0 (ix2_0 y)) (View.ld x r0_1 (ix2_1 y)) = _
  rw [View.ld_unit_zero (S := S131072x1) corner, View.ld_unit_zero (S := S131072x8) corner]

/-- WHAT GRID POINT `t` WRITES BACK is block `t` of the row-scaling function of the factor column and the table as
    the region finds them. -/
theorem flushed_rows (c : Dev nD) (t : Fin cfg0.N) :
    (dats m 0 c).flushed 2 t
      = ((cfg0.win 2).blk t).view.read (Elt F) (rowScaled (V m c main_v6) (V m c main_arg0)) := by
  rw [flushed2]
  obtain ⟨a0, a1, b0, b1, o0, o1⟩ := block_index t
  funext j
  show out0_2 (iblk m c 0 t) (iblk m c 1 t) j = _
  rw [body_block]
  show FloatOps.mulf (V m c main_v6 (((cfg0.win 0).blk t).view.emb (ix2_0 j))) (V m c main_arg0 (((cfg0.win 1).blk t).view.emb (ix2_1 j)))
    = FloatOps.mulf (V m c main_v6 (factorAt (((cfg0.win 2).blk t).view.emb j))) (V m c main_arg0 (((cfg0.win 2).blk t).view.emb j))
  have hj0 : (j 0).val < 131072 := (j 0).isLt
  have hj1 : (j 1).val < 8 := (j 1).isLt
  have hf : ((cfg0.win 0).blk t).view.emb (ix2_0 j) = factorAt (((cfg0.win 2).blk t).view.emb j) := by
    funext a; apply Fin.ext
    match a with
    | ⟨0, _⟩ => show win0_0.index t (0 : Fin 2) * 131072 + 1 * (j 0).val = win0_2.index t (0 : Fin 2) * 131072 + 1 * (j 0).val; omega
    | ⟨1, _⟩ => show win0_0.index t (1 : Fin 2) * 1 + 1 * 0 = 0; omega
  have hx : ((cfg0.win 1).blk t).view.emb (ix2_1 j) = ((cfg0.win 2).blk t).view.emb j := by
    funext a; apply Fin.ext
    match a with
    | ⟨0, _⟩ => show win0_1.index t (0 : Fin 2) * 131072 + 1 * (j 0).val = win0_2.index t (0 : Fin 2) * 131072 + 1 * (j 0).val; omega
    | ⟨1, _⟩ => show win0_1.index t (1 : Fin 2) * 8 + 1 * (j 1).val = win0_2.index t (1 : Fin 2) * 8 + 1 * (j 1).val; omega
  rw [hf, hx]

end Cert.KernelIdeal.Rows

end
-- ==== Proof.KernelCover.lean ====
/-
  The 32 result blocks tile the result array: block `t` is rows `131072·t … 131072·t + 131071`, all 8 columns, and
  32 · 131072 = 4194304. So every entry of the array lies in exactly the block of the grid point `row / 131072`, and
  every grid point writes its block back.
-/
import proofs.«168124_j13039520711241_1_alg».proof.Proof.Gen.KernelIdeal.Value
import proofs.«168124_j13039520711241_1_alg».proof.Proof.BlockIndex

noncomputable section

namespace Cert.KernelIdeal.Rows

open Cert.KernelIdeal Cert.KernelIdeal.Gen Cert.KernelIdeal.Value
open Idealize.ShloMosaic Idealize.ShloMosaic.TcCoe Idealize.SL.Sem
open Idealize.ShloMosaic.Pipeline (Dat)

/-- An entry of the array is in grid point `t`'s block iff each of its coordinates is in the block's range on that axis. -/
theorem mem_block (t : Fin cfg0.N) (i : S4194304x8.Idx) :
    i ∈ ((cfg0.win 2).blk t).view.set ↔ ∀ a : Fin 2, win0_2.index t a * S131072x8.size a ≤ (i a).val
      ∧ (i a).val < win0_2.index t a * S131072x8.size a + S131072x8.size a := by
  show i ∈ ((View.whole main_v7).slice (win0_2.rect t)).set ↔ _
  rw [View.set_slice_whole, Rect.mem_set_unit]
  exact Iff.rfl

/-- Every entry of the result array is in the block some grid point writes back: the point `row / 131072`. -/
theorem covered (i : S4194304x8.Idx) :
    ∃ t : Fin cfg0.N, (cfg0.win 2).flush t = true ∧ i ∈ ((cfg0.win 2).blk t).view.set := by
  have hi0 : (i 0).val < 4194304 := (i 0).isLt
  have hi1 : (i 1).val < 8 := (i 1).isLt
  have hN : cfg0.N = 32 := N_0
  obtain ⟨t, ht⟩ : ∃ t : Fin cfg0.N, t.val = (i 0).val / 131072 := ⟨⟨(i 0).val / 131072, by rw [hN]; omega⟩, rfl⟩
  obtain ⟨-, -, -, -, o0, o1⟩ := block_index t
  refine ⟨t, flush0_2 t, ?_⟩
  rw [mem_block]
  intro a
  match a with
  | ⟨0, _⟩ =>
    show win0_2.index t (0 : Fin 2) * 131072 ≤ (i 0).val ∧ (i 0).val < win0_2.index t (0 : Fin 2) * 131072 + 131072
    omega
  | ⟨1, _⟩ =>
    show win0_2.index t (1 : Fin 2) * 8 ≤ (i 1).val ∧ (i 1).val < win0_2.index t (1 : Fin 2) * 8 + 8
    omega

end Cert.KernelIdeal.Rows

end
-- ==== Proof.KernelRun.lean ====
/-
  The kernel's program as a whole. Before its region the program normalises the row numbers in `idx` (a negative
  one has 1048576 added) and gathers, for each of the 4194304 rows, the one entry of `params` at that row number:
  this is the factor column the region finds (`factors`). The region then leaves every block of the result at the
  row-scaling function of that column and the table (one grid point), the blocks tile the result (the cover), so
  after the run the result array IS the row-scaling function of the gathered factors and `xs`, and the three
  argument arrays are as launched.
-/
import proofs.«168124_j13039520711241_1_alg».proof.Proof.KernelBlock
import proofs.«168124_j13039520711241_1_alg».proof.Proof.KernelCover
import Idealize.ShloMosaic.Lib.StableHlo.Run

noncomputable section

namespace Cert.KernelIdeal.Rows

open Cert.KernelIdeal Cert.KernelIdeal.Gen Cert.KernelIdeal.Value Cert.RowScale
open Idealize.ShloMosaic Idealize.ShloMosaic.TcCoe Idealize.SL.Sem
open Idealize.ShloMosaic.Pipeline (Dat)
open Idealize.ShloMosaic.StableHlo

variable {F : FTy → Type} [FloatOps F]
variable (m : (ℓ : Loc nD τ sig) → Buf (Elt F) ℓ) (ρ : Dev nD → PrngReg)

/-- The factor column: row `r` holds the entry of `params` at the row number `idx r`, a negative `idx r` first
    raised by 1048576 (the host operations of the program before its region, as one term of the two arguments). -/
def factors (idx : (⟨S4194304, .i32⟩ : BufTy).Contents (Elt F)) (params : (⟨S1048576x1, .f32⟩ : BufTy).Contents (Elt F)) :
    (⟨S4194304x1, .f32⟩ : BufTy).Contents (Elt F) :=
  Host.gather gather_S1048576x1_S4194304x1_S4194304x1_1_0_n_n_0_1_11 params
    (broadcastInDim S4194304x1 ![0] bcast_S4194304_S4194304x1_0
      (select (cmpi .slt idx (broadcastInDim S4194304 ![] bcast_S_S4194304 (constantI S_ 32 0#32)))
        (addi idx (broadcastInDim S4194304 ![] bcast_S_S4194304 (constantI S_ 32 1048576#32))) idx))

/-- The region finds the factor column in the buffer its first window stages. -/
theorem entry_factors (c : Dev nD) :
    (V m c main_v6 : (⟨S4194304x1, .f32⟩ : BufTy).Contents (Elt F))
      = factors (m ((c : Thread nD τ).loc main_arg1)) (m ((c : Thread nD τ).loc main_arg2)) := by
  dsimp only [Gen.V, Gen.hostOps0]
  after_results
  rfl

/-- THE RESULT ARRAY after the run: the table with every row multiplied through by its gathered factor. -/
theorem final_rows (c : Dev nD) :
    (dats m 0 c).arrAt 2 cfg0.N
      = rowScaled (factors (m ((c : Thread nD τ).loc main_arg1)) (m ((c : Thread nD τ).loc main_arg2)))
          (m ((c : Thread nD τ).loc main_arg0)) := by
  rw [← entry_factors m c, ← V_main_arg0 m c]
  exact (dats m 0 c).arrAt_eq_of_cover 2 (rowScaled (V m c main_v6) (V m c main_arg0))
    (fun t _ => flushed_rows m c t) covered

/-- The run, read: the result at the row-scaling function of the arguments, the arguments unchanged. -/
theorem run : θ_run defs (onTc (τ := τ) (main (F := F))) ⟨m, fun _ => 0, ρ⟩ fun r => ∀ c : Dev nD,
      r.2.mem ((c : Thread nD τ).loc main_v7)
        = rowScaled (factors (m ((c : Thread nD τ).loc main_arg1)) (m ((c : Thread nD τ).loc main_arg2)))
            (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_rows m c), (h c).2⟩) (run_blocks m ρ)

end Cert.KernelIdeal.Rows

end
-- ==== Proof.lean ====
/-
  The kernel and its reference compute one function: the table `xs` (4194304 rows of 8) with every row multiplied
  through by one factor, the factor of row `r` being the entry of `params` at the row number `idx r` (a negative
  row number first raised by 1048576).

  Both programs build the factor column by the same operations on `idx` and `params`. The kernel then hands the
  column and the table, 131072 rows at a time, to a body that spreads each factor along its row and multiplies, and
  writes each block of products back; the 32 blocks tile the result. The reference spreads the whole column along
  the rows and multiplies the two arrays entry by entry. Either way entry (r, d) of the result is
  (factor of row r) · xs r d, the same two operands in the same order: no law of arithmetic is needed, so nothing is
  asked of the inputs (the finiteness of the inputs is never used), and the equality holds of the extended reals as
  it would of any reading of the floats.

  The idealization rewrote no operation of the kernel, so there is nothing to preserve beyond the program's own text.
-/
import proofs.«168124_j13039520711241_1_alg».proof.Defs
import proofs.«168124_j13039520711241_1_alg».proof.Proof.Gen.Kernel
import proofs.«168124_j13039520711241_1_alg».proof.Proof.Gen.Kernel.Frame
import proofs.«168124_j13039520711241_1_alg».proof.Proof.Gen.KernelIdeal
import proofs.«168124_j13039520711241_1_alg».proof.Proof.Gen.KernelIdeal.Frame
import proofs.«168124_j13039520711241_1_alg».proof.Proof.Gen.ReferenceIdeal
import proofs.«168124_j13039520711241_1_alg».proof.Proof.Gen.KernelIdeal.Value
import proofs.«168124_j13039520711241_1_alg».proof.Proof.Gen.ReferenceIdeal.Run
import proofs.«168124_j13039520711241_1_alg».proof.Proof.Gen.ReferenceIdeal.Read
import proofs.«168124_j13039520711241_1_alg».proof.Proof.Gen.Pre_finite_inputs
import proofs.«168124_j13039520711241_1_alg».proof.Proof.RowScale
import proofs.«168124_j13039520711241_1_alg».proof.Proof.ReferenceRows
import proofs.«168124_j13039520711241_1_alg».proof.Proof.KernelRun

noncomputable section

open Idealize.ShloMosaic Idealize.ShloMosaic.TcCoe Idealize.SL.Sem

namespace Cert.Proof.Rows

/-- The two programs' factor columns are one term of `idx` and `params`: the same operations in the same order. -/
theorem factors_eq (x1 : (⟨Cert.ReferenceIdeal.S4194304, .i32⟩ : BufTy).Contents (Elt Ideal))
    (x2 : (⟨Cert.ReferenceIdeal.S1048576x1, .f32⟩ : BufTy).Contents (Elt Ideal)) :
    Cert.ReferenceIdeal.Read.val_main_v6 (F := Ideal) x1 x2 = Cert.KernelIdeal.Rows.factors (F := Ideal) x1 x2 := rfl

/-- The kernel's program runs, and its arguments end as launched. -/
theorem frame_kernel : Cert.frame_Kernel := fun m ρ _ => Cert.Kernel.Gen.frame m ρ

/-- So does the idealized kernel's. -/
theorem frame_kernel_ideal : Cert.frame_KernelIdeal := fun m ρ _ => Cert.KernelIdeal.Gen.frame m ρ

/-- So does the reference's: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten. -/
theorem preserves : Cert.preserves_Kernel_KernelIdeal := trivial

/-- From memories agreeing on `xs`, `idx` and `params`, both programs end with the result at the table with every
    row multiplied through by its gathered factor. -/
theorem algebraic : Cert.algebraic_KernelIdeal_ReferenceIdeal := by
  intro m ρ m' ρ' _ hagree
  refine ⟨_, Cert.KernelIdeal.Rows.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Rows.result_eq, factors_eq,
    (hagree c).1, (hagree c).2.1, (hagree c).2.2]

end Cert.Proof.Rows

namespace Cert.Proof

theorem claim : Cert.Claim :=
  ⟨Cert.Kernel.Gen.facts, Cert.KernelIdeal.Gen.facts, Cert.ReferenceIdeal.Gen.facts, Cert.Pre_finite_inputs.Gen.facts,
    Rows.frame_kernel, Rows.frame_kernel_ideal, Rows.frame_reference, Rows.preserves, Rows.algebraic⟩

end Cert.Proof

end
